-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x88 : Shape := ⟨2, ![200000, 88]⟩
abbrev S200000x6 : Shape := ⟨2, ![200000, 6]⟩
abbrev S_ : Shape := ⟨0, ![]⟩

class Facts : Prop where
  bcast_S_S200000x88 : S_.BroadcastsInDim S200000x88 (![] : Fin 0 → Fin S200000x88.rank)
  reducesTo_S200000x88_S_d0_1 : S200000x88.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_

variable [Facts]

def fn_part1 {F : FTy → Type} [FloatOps F] (main_arg4 : FVec F S200000x88 .f32) (main_arg5 : FVec F S200000x88 .f32) (main_v13 : IVec S_ 1) (main_v16 : IVec S200000x6 1) : IVec S_ 1 :=
  let main_c_5 : IVec S_ 1 := constantI S_ 1 1#1
  let main_v17 : IVec S_ 1 := (fun x v => Host.reduce IntOp.andi x v reducesTo_S200000x6_S_d0_1 h_S_) main_v16 main_c_5
  let main_v18 : IVec S_ 1 := andi main_v13 main_v17
  let main_v19 : FVec F S200000x88 .f32 := Host.absf main_arg4
  let main_cst_6 : FVec F S_ .f32 := constant S_ .f32 0x7F800000#32
  let main_v20 : FVec F S200000x88 .f32 := broadcastInDim S200000x88 ![] bcast_S_S200000x88 main_cst_6
  let main_v21 : IVec S200000x88 1 := cmpf .olt main_v19 main_v20
  let main_c_7 : IVec S_ 1 := constantI S_ 1 1#1
  let main_v22 : IVec S_ 1 := (fun x v => Host.reduce IntOp.andi x v reducesTo_S200000x88_S_d0_1 h_S_) main_v21 main_c_7
  let main_v23 : IVec S_ 1 := andi main_v18 main_v22
  let main_v24 : FVec F S200000x88 .f32 := Host.absf main_arg5
  let main_cst_8 : FVec F S_ .f32 := constant S_ .f32 0x7F800000#32
  let main_v25 : FVec F S200000x88 .f32 := broadcastInDim S200000x88 ![] bcast_S_S200000x88 main_cst_8
  let main_v26 : IVec S200000x88 1 := cmpf .olt main_v24 main_v25
  let main_c_9 : IVec S_ 1 := constantI S_ 1 1#1
  let main_v27 : IVec S_ 1 := (fun x v => Host.reduce IntOp.andi x v reducesTo_S200000x88_S_d0_1 h_S_) main_v26 main_c_9
  let main_v28 : IVec S_ 1 := andi main_v23 main_v27
  main_v28

def fn {F : FTy → Type} [FloatOps F] (main_arg0 : FVec F S200000x88 .f32) (main_arg1 : FVec F S200000x6 .f32) (main_arg2 : FVec F S200000x6 .f32) (main_arg3 : FVec F S200000x6 .f32) (main_arg4 : FVec F S200000x88 .f32) (main_arg5 : FVec F S200000x88 .f32) : IVec S_ 1 :=
  let main_v0 : FVec F S200000x88 .f32 := Host.absf main_arg0
  let main_cst : FVec F S_ .f32 := constant S_ .f32 0x7F800000#32
  let main_v1 : FVec F S200000x88 .f32 := broadcastInDim S200000x88 ![] bcast_S_S200000x88 main_cst
  let main_v2 : IVec S200000x88 1 := cmpf .olt main_v0 main_v1
  let main_c : IVec S_ 1 := constantI S_ 1 1#1
  let main_v3 : IVec S_ 1 := (fun x v => Host.reduce IntOp.andi x v reducesTo_S200000x88_S_d0_1 h_S_) main_v2 main_c
  let main_v4 : FVec F S200000x6 .f32 := Host.absf main_arg1
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S200000x6 .f32 := Host.absf main_arg2
  let main_cst_2 : FVec F S_ .f32 := constant S_ .f32 0x7F800000#32
  let main_v10 : FVec F S200000x6 .f32 := broadcastInDim S200000x6 ![] bcast_S_S200000x6 main_cst_2
  let main_v11 : IVec S200000x6 1 := cmpf .olt main_v9 main_v10
  let main_c_3 : IVec S_ 1 := constantI S_ 1 1#1
  let main_v12 : IVec S_ 1 := (fun x v => Host.reduce IntOp.andi x v reducesTo_S200000x6_S_d0_1 h_S_) main_v11 main_c_3
  let main_v13 : IVec S_ 1 := andi main_v8 main_v12
  let main_v14 : FVec F S200000x6 .f32 := Host.absf main_arg3
  let main_cst_4 : FVec F S_ .f32 := constant S_ .f32 0x7F800000#32
  let main_v15 : FVec F S200000x6 .f32 := broadcastInDim S200000x6 ![] bcast_S_S200000x6 main_cst_4
  let main_v16 : IVec S200000x6 1 := cmpf .olt main_v14 main_v15
  fn_part1 (F := F) main_arg4 main_arg5 main_v13 main_v16
-- ==== Kernel.lean ====
abbrev S200000x88 : Shape := ⟨2, ![200000, 88]⟩
abbrev S200000x6 : Shape := ⟨2, ![200000, 6]⟩
abbrev S1x6400 : Shape := ⟨2, ![1, 6400]⟩
abbrev S4000x88 : Shape := ⟨2, ![4000, 88]⟩
abbrev S4000x6 : Shape := ⟨2, ![4000, 6]⟩
abbrev S1x128 : Shape := ⟨2, ![1, 128]⟩
abbrev S88 : Shape := ⟨1, ![88]⟩
abbrev S1x88 : Shape := ⟨2, ![1, 88]⟩
abbrev S4000x5 : Shape := ⟨2, ![4000, 5]⟩
abbrev S5 : Shape := ⟨1, ![5]⟩
abbrev S1x5 : Shape := ⟨2, ![1, 5]⟩
abbrev S1 : Shape := ⟨1, ![1]⟩
abbrev S1x1 : Shape := ⟨2, ![1, 1]⟩
abbrev S1x38 : Shape := ⟨2, ![1, 38]⟩
abbrev S50x128 : Shape := ⟨2, ![50, 128]⟩
abbrev S50x88 : Shape := ⟨2, ![50, 88]⟩
abbrev S_ : Shape := ⟨0, ![]⟩
abbrev S50x1 : Shape := ⟨2, ![50, 1]⟩
abbrev S50 : Shape := ⟨1, ![50]⟩

abbrev nBuf : Space → Nat
  | .hbm => 26
  | .vmem => 12
  | .smem => 0
  | _ => 0

abbrev bufTy : (tb : Table) → Fin (tcTables nBuf tb) → BufTy
  | .hbm, ⟨0, _⟩ => ⟨S200000x88, .f32⟩
  | .hbm, ⟨1, _⟩ => ⟨S200000x6, .f32⟩
  | .hbm, ⟨2, _⟩ => ⟨S200000x6, .f32⟩
  | .hbm, ⟨3, _⟩ => ⟨S200000x6, .f32⟩
  | .hbm, ⟨4, _⟩ => ⟨S200000x88, .f32⟩
  | .hbm, ⟨5, _⟩ => ⟨S200000x88, .f32⟩
  | .hbm, ⟨6, _⟩ => ⟨S1x6400, .f32⟩
  | .hbm, ⟨7, _⟩ => ⟨S50x128, .f32⟩
  | .hbm, ⟨8, _⟩ => ⟨S50x88, .f32⟩
  | .hbm, ⟨9, _⟩ => ⟨S_, .f32⟩
  | .hbm, ⟨10, _⟩ => ⟨S88, .f32⟩
  | .hbm, ⟨11, _⟩ => ⟨S50x1, .f32⟩
  | .hbm, ⟨12, _⟩ => ⟨S50, .f32⟩
  | .hbm, ⟨13, _⟩ => ⟨S_, .f32⟩
  | .hbm, ⟨14, _⟩ => ⟨S_, .f32⟩
  | .hbm, ⟨15, _⟩ => ⟨S50x1, .f32⟩
  | .hbm, ⟨16, _⟩ => ⟨S50, .f32⟩
  | .hbm, ⟨17, _⟩ => ⟨S_, .f32⟩
  | .hbm, ⟨18, _⟩ => ⟨S_, .f32⟩
  | .hbm, ⟨19, _⟩ => ⟨S88, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S4000x88, .f32⟩
  | .local _ .vmem, ⟨1, _⟩ => ⟨S4000x88, .f32⟩
  | .local _ .vmem, ⟨2, _⟩ => ⟨S4000x88, .f32⟩
  | .local _ .vmem, ⟨3, _⟩ => ⟨S4000x88, .f32⟩
  | .local _ .vmem, ⟨4, _⟩ => ⟨S4000x88, .f32⟩
  | .local _ .vmem, ⟨5, _⟩ => ⟨S4000x88, .f32⟩
  | .local _ .vmem, ⟨6, _⟩ => ⟨S4000x6, .f32⟩
  | .local _ .vmem, ⟨7, _⟩ => ⟨S4000x6, .f32⟩
  | .local _ .vmem, ⟨8, _⟩ => ⟨S4000x6, .f32⟩
  | .local _ .vmem, ⟨9, _⟩ => ⟨S4000x6, .f32⟩
  | .local _ .vmem, ⟨10, _⟩ => ⟨S1x128, .f32⟩
  | .local _ .vmem, ⟨11, _⟩ => ⟨S1x128, .f32⟩
  | _, _ => ⟨S200000x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4000x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x88 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x88 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4000x88_S4000x88_0_0 : ∀ a, (![0, 0] : Fin 2 → Nat) a + S4000x88.size a ≤ S4000x88.size a
  h_S4000x88 : 0 < S4000x88.numel
  inb_S4000x6_S4000x6_0_0 : ∀ a, (![0, 0] : Fin 2 → Nat) a + S4000x6.size a ≤ S4000x6.size a
  h_S4000x6 : 0 < S4000x6.numel
  reduces_S4000x88_S88 : S4000x88.Reduces [0] S88
  shapeCasts_S88_S1x88 : S88.ShapeCasts S1x88
  slices_S4000x6_o0_0_S4000x5 : S4000x6.Slices ![0, 0] S4000x5
  reduces_S4000x5_S5 : S4000x5.Reduces [0] S5
  shapeCasts_S5_S1x5 : S5.ShapeCasts S1x5
  reduces_S1x5_S1 : S1x5.Reduces [1] S1
  shapeCasts_S1_S1x1 : S1.ShapeCasts S1x1
  reduces_S1x88_S1 : S1x88.Reduces [1] S1
  inb_S1x128_S1x88_0_0 : ∀ a, (![0, 0] : Fin 2 → Nat) a + S1x88.size a ≤ S1x128.size a
  h_S1x88 : 0 < S1x88.numel
  inb_S1x128_S1x1_0_88 : ∀ a, (![0, 88] : Fin 2 → Nat) a + S1x1.size a ≤ S1x128.size a
  h_S1x1 : 0 < S1x1.numel
  inb_S1x128_S1x1_0_89 : ∀ a, (![0, 89] : Fin 2 → Nat) a + S1x1.size a ≤ S1x128.size a
  inb_S1x128_S1x38_0_90 : ∀ a, (![0, 90] : Fin 2 → Nat) a + S1x38.size a ≤ S1x128.size a
  h_S1x38 : 0 < S1x38.numel
  shapeCasts_S1x6400_S50x128 : S1x6400.ShapeCasts S50x128
  slices_S50x128_S50x88_0_0 : S50x128.Slices ![0, 0] S50x88
  reducesTo_S50x88_S88_d0 : S50x88.ReducesTo [0] S88
  h_S_ : 0 < S_.numel
  slices_S50x128_S50x1_0_88 : S50x128.Slices ![0, 88] S50x1
  shapeCasts_S50x1_S50 : S50x1.ShapeCasts S50
  reducesTo_S50_S_d0 : S50.ReducesTo [0] S_
  slices_S50x128_S50x1_0_89 : S50x128.Slices ![0, 89] S50x1
  reducesTo_S88_S_d0 : S88.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x88.size a ≤ S200000x88.size a
  hwx0_0 : ∀ i : grid0.Coords, EltTy.bits .f32 = 32 ∨ (Rect.block (s := S200000x88) S4000x88.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x88.size a ≤ S200000x88.size a
  hwx0_1 : ∀ i : grid0.Coords, EltTy.bits .f32 = 32 ∨ (Rect.block (s := S200000x88) S4000x88.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x88.size a ≤ S200000x88.size a
  hwx0_2 : ∀ i : grid0.Coords, EltTy.bits .f32 = 32 ∨ (Rect.block (s := S200000x88) S4000x88.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x6.size a ≤ S200000x6.size a
  hwx0_3 : ∀ i : grid0.Coords, EltTy.bits .f32 = 32 ∨ (Rect.block (s := S200000x6) S4000x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x6.size a ≤ S200000x6.size a
  hwx0_4 : ∀ i : grid0.Coords, EltTy.bits .f32 = 32 ∨ (Rect.block (s := S200000x6) S4000x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x6400.size a
  hwx0_5 : ∀ i : grid0.Coords, EltTy.bits .f32 = 32 ∨ (Rect.block (s := S1x6400) S1x128.size (cc0_transform_5 i) (hinb0_5 i)).WholeWords (EltTy.packing .f32)

variable [Facts₀]

abbrev win0_0 : Pipeline.Window sig grid0 :=
  Pipeline.Window.ofSpec (Memref.whole main_arg0) S4000x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4000x88.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4000x88.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S4000x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4000x6.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x88 : Shape := ⟨2, ![200000, 88]⟩
abbrev S200000x6 : Shape := ⟨2, ![200000, 6]⟩
abbrev S200000x5 : Shape := ⟨2, ![200000, 5]⟩
abbrev S_ : Shape := ⟨0, ![]⟩
abbrev S88 : Shape := ⟨1, ![88]⟩

abbrev nBuf : Space → Nat
  | .hbm => 48
  | .vmem => 0
  | .smem => 0
  | _ => 0

abbrev bufTy : (tb : Table) → Fin (tcTables nBuf tb) → BufTy
  | .hbm, ⟨0, _⟩ => ⟨S200000x88, .f32⟩
  | .hbm, ⟨1, _⟩ => ⟨S200000x6, .f32⟩
  | .hbm, ⟨2, _⟩ => ⟨S200000x6, .f32⟩
  | .hbm, ⟨3, _⟩ => ⟨S200000x6, .f32⟩
  | .hbm, ⟨4, _⟩ => ⟨S200000x88, .f32⟩
  | .hbm, ⟨5, _⟩ => ⟨S200000x88, .f32⟩
  | .hbm, ⟨6, _⟩ => ⟨S200000x5, .f32⟩
  | .hbm, ⟨7, _⟩ => ⟨S200000x5, .f32⟩
  | .hbm, ⟨8, _⟩ => ⟨S200000x5, .f32⟩
  | .hbm, ⟨9, _⟩ => ⟨S200000x5, .f32⟩
  | .hbm, ⟨10, _⟩ => ⟨S_, .f32⟩
  | .hbm, ⟨11, _⟩ => ⟨S_, .f32⟩
  | .hbm, ⟨12, _⟩ => ⟨S200000x88, .f32⟩
  | .hbm, ⟨13, _⟩ => ⟨S_, .f32⟩
  | .hbm, ⟨14, _⟩ => ⟨S88, .f32⟩
  | .hbm, ⟨15, _⟩ => ⟨S88, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S200000x88, .f32⟩
  | .hbm, ⟨22, _⟩ => ⟨S200000x88, .f32⟩
  | .hbm, ⟨23, _⟩ => ⟨S200000x88, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S200000x88, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S200000x88, .f32⟩
  | .hbm, ⟨37, _⟩ => ⟨S200000x88, .i1⟩
  | .hbm, ⟨38, _⟩ => ⟨S_, .f32⟩
  | .hbm, ⟨39, _⟩ => ⟨S_, .f32⟩
  | .hbm, ⟨40, _⟩ => ⟨S200000x88, .f32⟩
  | .hbm, ⟨41, _⟩ => ⟨S200000x88, .f32⟩
  | .hbm, ⟨42, _⟩ => ⟨S_, .f32⟩
  | .hbm, ⟨43, _⟩ => ⟨S200000x88, .f32⟩
  | .hbm, ⟨44, _⟩ => ⟨S200000x88, .f32⟩
  | .hbm, ⟨45, _⟩ => ⟨S_, .f32⟩
  | .hbm, ⟨46, _⟩ => ⟨S_, .f32⟩
  | .hbm, ⟨47, _⟩ => ⟨S_, .f32⟩
  | _, _ => ⟨S200000x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]

class Facts₀ : Prop where
  slices_S200000x6_S200000x5_0_0 : S200000x6.Slices ![0, 0] S200000x5
  reducesTo_S200000x5_S_d0_1 : S200000x5.ReducesTo [0, 1] S_
  h_S_ : 0 < S_.numel
  reducesTo_S200000x88_S88_d0 : S200000x88.ReducesTo [0] S88
  reducesTo_S88_S_d0 : S88.ReducesTo [0] S_
  reducesTo_S200000x88_S_d0_1 : S200000x88.ReducesTo [0, 1] S_
  bcast_S_S200000x88 : S_.BroadcastsInDim S200000x88 (![] : Fin 0 → Fin S200000x88.rank)

variable [Facts₀]

class Facts : Prop extends Facts₀ where

variable [Facts]
-- ==== Proof.LossBlock.lean ====
/-
  The result array after the pallas_call, as one function of the tiles.

  The body ends with four stores into its one-row, 128-lane result block: lanes 0–87 get the column sums of |G|,
  lane 88 the tile's squared error, lane 89 the tile's scaled terms, lanes 90–127 zeros. The four rectangles tile
  the block, so the block is ONE function of the lane (`tileRow`), whatever the block held before: a store's earlier
  load of the same lanes is never used. Point `t` of the grid writes its block back as lanes `128 t … 128 t + 127` of
  the 1 × 6400 result array, every point writes, and the fifty blocks tile the array; so after the run entry
  `128 t + l` of the array is lane `l` of tile `t`'s row (`lossRow`, `final`).
-/
import proofs.«101278_j1108101563123_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-! ## One tile's row -/

/-- The row a tile leaves in its result block, lane by lane. -/
def tileRow (x0 x1 x2 : Vec Ideal S4000x88 .f32) (x3 x4 : Vec Ideal S4000x6 .f32) : Vec Ideal S1x128 .f32 := fun y =>
  if h : (y 1).val < 88 then k0_pay2 (F := Ideal) x0 (ix2 (0 : Fin 1) (⟨(y 1).val, h⟩ : Fin 88))
  else if (y 1).val = 88 then k0_pay3 (F := Ideal) x3 x4 (ix2 (0 : Fin 1) (0 : Fin 1))
  else if (y 1).val = 89 then k0_pay4 (F := Ideal) x0 x1 x2 (ix2 (0 : Fin 1) (0 : Fin 1))
  else Ideal.ofBits .f32 0x00000000#32

section Lanes

variable (x0 x1 x2 : Vec Ideal S4000x88 .f32) (x3 x4 : Vec Ideal S4000x6 .f32) (y : S1x128.Idx)

theorem tileRow_col (l : Fin 88) (h : (y 1).val = l.val) :
    tileRow x0 x1 x2 x3 x4 y = k0_pay2 (F := Ideal) x0 (ix2 (0 : Fin 1) l) := by
  have hl : (y 1).val < 88 := h ▸ l.isLt
  unfold tileRow
  rw [dif_pos hl]
  exact congrArg (fun l' : Fin 88 => k0_pay2 (F := Ideal) x0 (ix2 (0 : Fin 1) l')) (Fin.ext h)

theorem tileRow_88 (h : (y 1).val = 88) :
    tileRow x0 x1 x2 x3 x4 y = k0_pay3 (F := Ideal) x3 x4 (ix2 (0 : Fin 1) (0 : Fin 1)) := by
  unfold tileRow
  rw [dif_neg (by omega), if_pos h]

theorem tileRow_89 (h : (y 1).val = 89) :
    tileRow x0 x1 x2 x3 x4 y = k0_pay4 (F := Ideal) x0 x1 x2 (ix2 (0 : Fin 1) (0 : Fin 1)) := by
  unfold tileRow
  rw [dif_neg (by omega), if_neg (by omega), if_pos h]

theorem tileRow_pad (h : 90 ≤ (y 1).val) : tileRow x0 x1 x2 x3 x4 y = Ideal.ofBits .f32 0x00000000#32 := by
  unfold tileRow
  rw [dif_neg (by omega), if_neg (by omega), if_neg (by omega)]

end Lanes

/-- What the body's four stores leave in the result block is the tile's row: each store's payload is the row on its
    own lanes, and the four rectangles cover the block. -/
theorem out_eq (c : Dev nD) (i : grid0.Coords) (arg1 : Memref sig .tc .vmem S4000x88 .f32) (harg1 : arg1.IsWhole) (arg2 : Memref sig .tc .vmem S4000x88 .f32) (harg2 : arg2.IsWhole) (arg3 : Memref sig .tc .vmem S4000x88 .f32) (harg3 : arg3.IsWhole) (arg4 : Memref sig .tc .vmem S4000x6 .f32) (harg4 : arg4.IsWhole) (arg5 : Memref sig .tc .vmem S4000x6 .f32) (harg5 : arg5.IsWhole) (arg6 : Memref sig .tc .vmem S1x128 .f32) (harg6 : arg6.IsWhole)
    (x0 x1 x2 : Vec Ideal S4000x88 .f32) (x3 x4 : Vec Ideal S4000x6 .f32) :
    out0_A_5 (F := Ideal) c i arg1 harg1 arg2 harg2 arg3 harg3 arg4 harg4 arg5 harg5 arg6 harg6 x0 x1 x2 x3 x4 = tileRow x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, harg1.read_unread, harg2.read_unread, harg3.read_unread, harg4.read_unread,
    harg5.read_unread, View.ld_unit_zero (S := S4000x88) hz, View.ld_unit_zero (S := S4000x6) hz]
  funext y
  have hy0 : (y 0).val < 1 := idx2_lt0 y
  have hy1 : (y 1).val < 128 := idx2_lt1 y
  refine View.canon_apply_of_pieces (tileRow x0 x1 x2 x3 x4) _ ?_ y ?_
  · intro p hp
    simp only [List.mem_cons, List.mem_nil_iff, or_false] at hp
    rcases hp with rfl | rfl | rfl | rfl
    · intro x
      have hx1 : (x 1).val < 38 := (x 1).isLt
      exact (tileRow_pad x0 x1 x2 x3 x4 _ (by show 90 ≤ 90 + 1 * (x 1).val; omega)).symm
    · intro x
      have hx0 : (x 0).val < 1 := (x 0).isLt
      have hx1 : (x 1).val < 1 := (x 1).isLt
      refine Eq.trans ?_ (tileRow_89 x0 x1 x2 x3 x4 _ (by show 89 + 1 * (x 1).val = 89; omega)).symm
      exact congrArg (k0_pay4 (F := Ideal) x0 x1 x2) (funext fun a => Fin.ext (by
        match a with
        | ⟨0, _⟩ => show (x 0).val = 0; omega
        | ⟨1, _⟩ => show (x 1).val = 0; omega))
    · intro x
      have hx0 : (x 0).val < 1 := (x 0).isLt
      have hx1 : (x 1).val < 1 := (x 1).isLt
      refine Eq.trans ?_ (tileRow_88 x0 x1 x2 x3 x4 _ (by show 88 + 1 * (x 1).val = 88; omega)).symm
      exact congrArg (k0_pay3 (F := Ideal) x3 x4) (funext fun a => Fin.ext (by
        match a with
        | ⟨0, _⟩ => show (x 0).val = 0; omega
        | ⟨1, _⟩ => show (x 1).val = 0; omega))
    · intro x
      have hx0 : (x 0).val < 1 := (x 0).isLt
      have hx1 : (x 1).val < 88 := (x 1).isLt
      refine Eq.trans ?_ (tileRow_col x0 x1 x2 x3 x4 _ (⟨(x 1).val, hx1⟩ : Fin 88) (by show 0 + 1 * (x 1).val = (x 1).val; omega)).symm
      exact congrArg (k0_pay2 (F := Ideal) x0) (funext fun a => Fin.ext (by
        match a with
        | ⟨0, _⟩ => show (x 0).val = 0; omega
        | ⟨1, _⟩ => rfl))
  · by_cases hA : (y 1).val < 88
    · refine ⟨_, List.mem_cons_of_mem _ (List.mem_cons_of_mem _ (List.mem_cons_of_mem _ List.mem_cons_self)), ?_⟩
      rw [Rect.mem_set_unit]
      intro a
      match a with
      | ⟨0, _⟩ => exact ⟨by show 0 ≤ (y 0).val; omega, by show (y 0).val < 0 + 1; omega⟩
      | ⟨1, _⟩ => exact ⟨by show 0 ≤ (y 1).val; omega, by show (y 1).val < 0 + 88; omega⟩
    · by_cases hB : (y 1).val = 88
      · refine ⟨_, List.mem_cons_of_mem _ (List.mem_cons_of_mem _ List.mem_cons_self), ?_⟩
        rw [Rect.mem_set_unit]
        intro a
        match a with
        | ⟨0, _⟩ => exact ⟨by show 0 ≤ (y 0).val; omega, by show (y 0).val < 0 + 1; omega⟩
        | ⟨1, _⟩ => exact ⟨by show 88 ≤ (y 1).val; omega, by show (y 1).val < 88 + 1; omega⟩
      · by_cases hC : (y 1).val = 89
        · refine ⟨_, List.mem_cons_of_mem _ List.mem_cons_self, ?_⟩
          rw [Rect.mem_set_unit]
          intro a
          match a with
          | ⟨0, _⟩ => exact ⟨by show 0 ≤ (y 0).val; omega, by show (y 0).val < 0 + 1; omega⟩
          | ⟨1, _⟩ => exact ⟨by show 89 ≤ (y 1).val; omega, by show (y 1).val < 89 + 1; omega⟩
        · refine ⟨_, List.mem_cons_self, ?_⟩
          rw [Rect.mem_set_unit]
          intro a
          match a with
          | ⟨0, _⟩ => exact ⟨by show 0 ≤ (y 0).val; omega, by show (y 0).val < 0 + 1; omega⟩
          | ⟨1, _⟩ => exact ⟨by show 90 ≤ (y 1).val; omega, by show (y 1).val < 90 + 38; omega⟩

/-! ## The array after the run -/

variable (m : (ℓ : Loc nD τ sig) → Buf (Elt Ideal) ℓ)

/-- Grid point `k` of the fifty. -/
def pt (k : Fin 50) : Fin cfg0.N := ⟨k.val, by rw [show cfg0.N = 50 from N_0]; exact k.isLt⟩

/-- Tile `t`'s row: the row of the five input blocks the region stages at point `t`. -/
def tileVal (c : Dev nD) (t : Fin cfg0.N) : Vec Ideal S1x128 .f32 :=
  tileRow (iblk m c 0 t) (iblk m c 1 t) (iblk m c 2 t) (iblk m c 3 t) (iblk m c 4 t)

/-- The tile an entry of the result array belongs to, and its lane there. -/
def tileOf (i : S1x6400.Idx) : Fin cfg0.N :=
  ⟨(i 1).val / 128, by have := idx2_lt1 i; rw [show cfg0.N = 50 from N_0]; omega⟩
def laneOf (i : S1x6400.Idx) : Fin 128 := ⟨(i 1).val % 128, Nat.mod_lt _ (by norm_num)⟩

/-- The result array after the run: entry `128 t + l` is lane `l` of tile `t`'s row. -/
def lossRow (c : Dev nD) : S1x6400.Idx → Ideal .f32 := fun i =>
  tileVal m c (tileOf i) (ix2 (0 : Fin 1) (laneOf i))

/-- The result window's index map: block `(0, t)` at point `t`. -/
theorem idx_out : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)

/-- What point `t` writes back is block `t` of `lossRow`. -/
theorem flushed_eq (c : Dev nD) (t : Fin cfg0.N) :
    (dats m 0 c).flushed 5 t = ((cfg0.win 5).blk t).view.read (Elt Ideal) (lossRow m c) := by
  show (cfg0.win 5).cut (grid0.coords t) ((dats m 0 c).after 5 t) = _
  rw [after0_5]
  obtain ⟨e0, e1⟩ := idx_out t
  funext j
  show outsAt0 m c t j = lossRow m c (((cfg0.win 5).blk t).view.emb j)
  have hj0 : (j 0).val < 1 := (j 0).isLt
  have hj1 : (j 1).val < 128 := (j 1).isLt
  have ht : tileOf (((cfg0.win 5).blk t).view.emb j) = t := Fin.ext (by
    show (win0_5.index t (1 : Fin 2) * 128 + 1 * (j 1).val) / 128 = t.val
    rw [e1]; omega)
  have hl : (ix2 (0 : Fin 1) (laneOf (((cfg0.win 5).blk t).view.emb j)) : S1x128.Idx) = j := funext fun a => Fin.ext (by
    match a with
    | ⟨0, _⟩ => show 0 = (j 0).val; omega
    | ⟨1, _⟩ => show (win0_5.index t (1 : Fin 2) * 128 + 1 * (j 1).val) % 128 = (j 1).val; rw [e1]; omega)
  unfold lossRow
  rw [ht, hl]
  unfold outsAt0 tileVal
  exact congrFun (out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)) j

/-- An entry of the result array is in point `t`'s block iff each coordinate is in the block's range. -/
theorem mem_blk (t : Fin cfg0.N) (i : S1x6400.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v0).slice (win0_5.rect t)).set ↔ _
  rw [View.set_slice_whole, Rect.mem_set_unit]
  exact Iff.rfl

/-- Every entry of the result array is in the block of the point its tile names. -/
theorem cover (i : S1x6400.Idx) :
    ∃ t : Fin cfg0.N, (cfg0.win 5).flush t = true ∧ i ∈ ((cfg0.win 5).blk t).view.set := by
  have h0 : (i 0).val < 1 := idx2_lt0 i
  have h1 : (i 1).val < 6400 := idx2_lt1 i
  refine ⟨tileOf i, flush0_5 _, ?_⟩
  rw [mem_blk]
  obtain ⟨e0, e1⟩ := idx_out (tileOf i)
  have ev : (tileOf i).val = (i 1).val / 128 := rfl
  intro a
  match a with
  | ⟨0, _⟩ =>
    show win0_5.index (tileOf i) (0 : Fin 2) * 1 ≤ (i 0).val ∧ (i 0).val < win0_5.index (tileOf i) (0 : Fin 2) * 1 + 1
    rw [e0]; omega
  | ⟨1, _⟩ =>
    show win0_5.index (tileOf i) (1 : Fin 2) * 128 ≤ (i 1).val ∧ (i 1).val < win0_5.index (tileOf i) (1 : Fin 2) * 128 + 128
    rw [e1, ev]; omega

/-- The result array after the run. -/
theorem final (c : Dev nD) : (dats m 0 c).arrAt 5 cfg0.N = lossRow m c :=
  (dats m 0 c).arrAt_eq_of_cover 5 (lossRow m c) (fun t _ => flushed_eq m c t) cover

/-- Entry `128 k + l` of the result array is lane `l` of tile `k`'s row. -/
theorem lossRow_apply (c : Dev nD) (k : Fin 50) (l : Fin 128) (h : k.val * 128 + l.val < 6400) :
    lossRow m c (ix2 (0 : Fin 1) (⟨k.val * 128 + l.val, h⟩ : Fin 6400)) = tileVal m c (pt k) (ix2 (0 : Fin 1) l) := by
  have hk := k.isLt
  have hl := l.isLt
  unfold lossRow
  have e1 : tileOf (ix2 (0 : Fin 1) (⟨k.val * 128 + l.val, h⟩ : Fin 6400)) = pt k := Fin.ext (by
    show (k.val * 128 + l.val) / 128 = k.val; omega)
  have e2 : laneOf (ix2 (0 : Fin 1) (⟨k.val * 128 + l.val, h⟩ : Fin 6400)) = l := Fin.ext (by
    show (k.val * 128 + l.val) % 128 = l.val; omega)
  rw [e1, e2]

end Cert.KernelIdeal.Block

end
-- ==== Proof.LossTail.lean ====
/-
  The host lines after the pallas_call, read at the ideal instance.

  The 1 × 6400 result array is viewed as 50 rows of 128 lanes (row `k` is tile `k`'s row). Three column ranges are
  cut out and each is added down the 50 rows: lanes 0–87 give, per column of G, the column's absolute sum over all
  tiles; lane 88 gives the squared error over all tiles; lane 89 gives the scaled terms over all tiles. The 88 column
  sums pass through the logarithm and are added up, the total is multiplied by the word `0x38D1B717`, and the
  result is `(lane-88 total + that product) + lane-89 total` (`tailOf`, `tailOf_apply`).
  At the ideal instance the host's `reduce … add` over one axis is its initial value plus the finite sum over that
  axis, a reshape keeps the row-major position, and a slice shifts the column by its offset.
  `tail_eq` says this function of the array the region leaves is what the program's result buffer ends holding.
-/
import proofs.«101278_j1108101563123_2_alg».proof.Proof.LossBlock
import Idealize.ShloMosaic.Lib.StableHlo.Run
import Idealize.ShloMosaic.PureOps.Ideal.Laws

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx Idealize.ShloMosaic.StableHlo

/-- Entry `128 k + l` of the result array: lane `l` of row `k`. -/
abbrev entry (k : Fin 50) (l : Fin 128) : S1x6400.Idx :=
  ix2 (0 : Fin 1) (⟨k.val * 128 + l.val, by have := k.isLt; have := l.isLt; omega⟩ : Fin 6400)

/-- Column `j` of G as a lane of a tile's row. -/
abbrev colLane (j : S88.Idx) : Fin 128 := ⟨(j 0).val, by have h : (j 0).val < 88 := (j 0).isLt; omega⟩

section Layout

variable {α : Type}

/-- The array viewed as 50 rows of 128 lanes. -/
theorem rows_apply (A : S1x6400.Idx → α) (k : Fin 50) (l : Fin 128) :
    shapeCast S50x128 A shapeCasts_S1x6400_S50x128 (ix2 k l) = A (entry k l) :=
  shapeCast_apply A shapeCasts_S1x6400_S50x128 (ix2 k l) (entry k l) (by
    rw [Shape.rowMajor_val_two, Shape.rowMajor_val_two]
    show 0 * 6400 + (k.val * 128 + l.val) = k.val * 128 + l.val; omega)

/-- The first 88 lanes of each row. -/
theorem cols_apply (B : S50x128.Idx → α) (k : Fin 50) (j : Fin 88) :
    extractStridedSlice S50x88 ![0, 0] B slices_S50x128_S50x88_0_0 (ix2 k j)
      = B (ix2 k (⟨j.val, by have := j.isLt; omega⟩ : Fin 128)) :=
  extractStridedSlice_apply ![0, 0] B slices_S50x128_S50x88_0_0 (ix2 k j) _ (fun a => match a with
    | ⟨0, _⟩ => by show k.val = 0 + k.val; omega
    | ⟨1, _⟩ => by show j.val = 0 + j.val; omega)

/-- Lane 88 of each row, as a column. -/
theorem lane88_apply (B : S50x128.Idx → α) (k : Fin 50) :
    extractStridedSlice S50x1 ![0, 88] B slices_S50x128_S50x1_0_88 (ix2 k (0 : Fin 1)) = B (ix2 k (⟨88, by omega⟩ : Fin 128)) :=
  extractStridedSlice_apply ![0, 88] B slices_S50x128_S50x1_0_88 (ix2 k (0 : Fin 1)) _ (fun a => match a with
    | ⟨0, _⟩ => by show k.val = 0 + k.val; omega
    | ⟨1, _⟩ => by show 88 = 88 + 0; omega)

/-- Lane 89 of each row, as a column. -/
theorem lane89_apply (B : S50x128.Idx → α) (k : Fin 50) :
    extractStridedSlice S50x1 ![0, 89] B slices_S50x128_S50x1_0_89 (ix2 k (0 : Fin 1)) = B (ix2 k (⟨89, by omega⟩ : Fin 128)) :=
  extractStridedSlice_apply ![0, 89] B slices_S50x128_S50x1_0_89 (ix2 k (0 : Fin 1)) _ (fun a => match a with
    | ⟨0, _⟩ => by show k.val = 0 + k.val; omega
    | ⟨1, _⟩ => by show 89 = 89 + 0; omega)

/-- A 50 × 1 column viewed as a vector of 50. -/
theorem column_apply (v : S50x1.Idx → α) (k : Fin 50) :
    shapeCast S50 v shapeCasts_S50x1_S50 (ix1 k) = v (ix2 k (0 : Fin 1)) :=
  shapeCast_apply v shapeCasts_S50x1_S50 (ix1 k) (ix2 k (0 : Fin 1)) (by
    rw [Shape.rowMajor_val_one, Shape.rowMajor_val_two]; show k.val * 1 + 0 = k.val; omega)

end Layout

section Sums

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a vector of 50. -/
theorem hostSum50 (x : FVec Ideal S50 .f32) (v : FVec Ideal S_ .f32) (i : S_.Idx) :
    Host.reduceAdd (F := Ideal) x v reducesTo_S50_S_d0 h_S_ i = v (Shape.Idx.first h_S_) + ∑ k : Fin 50, x (ix1 k) := by
  simp only [Host.reduceAdd, Ideal.hostReduceAdd_def]
  rw [Ideal.hostReduceAdd_total reducesTo_S50_S_d0 (fun b => b.elim0) x _ i]
  exact congrArg (_ + ·) (sum_idx1 x)

/-- The host's sum down the 50 rows of a 50 × 88 array, at column `j`. -/
theorem hostColSum (x : FVec Ideal S50x88 .f32) (v : FVec Ideal S_ .f32) (j : Fin 88) :
    Host.reduceAdd (F := Ideal) x v reducesTo_S50x88_S88_d0 h_S_ (ix1 j)
      = v (Shape.Idx.first h_S_) + ∑ k : Fin 50, x (ix2 k j) := by
  simp only [Host.reduceAdd, Ideal.hostReduceAdd_def]
  rw [Ideal.hostReduceAdd_single reducesTo_S50x88_S88_d0 (by decide)]
  refine congrArg (_ + ·) (Finset.sum_congr rfl fun k _ => ?_)
  exact congrArg x (funext fun a => Fin.ext (by match a with | ⟨0, _⟩ => rfl | ⟨1, _⟩ => rfl))

/-- The host's sum of a vector of 88, over its index set. -/
theorem hostSum88 (x : FVec Ideal S88 .f32) (v : FVec Ideal S_ .f32) (i : S_.Idx) :
    Host.reduceAdd (F := Ideal) x v reducesTo_S88_S_d0 h_S_ i = v (Shape.Idx.first h_S_) + ∑ j : S88.Idx, x j := by
  simp only [Host.reduceAdd, Ideal.hostReduceAdd_def]
  exact Ideal.hostReduceAdd_total reducesTo_S88_S_d0 (fun b => b.elim0) x _ i

end Sums

/-- The host lines after the pallas_call as one function of the result array. -/
def tailOf (A : S1x6400.Idx → Ideal .f32) : S_.Idx → Ideal .f32 :=
  addf
    (addf
      (Host.reduceAdd (F := Ideal)
        (shapeCast S50 (extractStridedSlice S50x1 ![0, 88] (shapeCast S50x128 A shapeCasts_S1x6400_S50x128)
          slices_S50x128_S50x1_0_88) shapeCasts_S50x1_S50)
        (constant (F := Ideal) S_ .f32 0x00000000#32) reducesTo_S50_S_d0 h_S_)
      (mulf (constant (F := Ideal) S_ .f32 0x38D1B717#32)
        (Host.reduceAdd (F := Ideal)
          (Host.log (F := Ideal)
            (Host.reduceAdd (F := Ideal)
              (extractStridedSlice S50x88 ![0, 0] (shapeCast S50x128 A shapeCasts_S1x6400_S50x128) slices_S50x128_S50x88_0_0)
              (constant (F := Ideal) S_ .f32 0x00000000#32) reducesTo_S50x88_S88_d0 h_S_))
          (constant (F := Ideal) S_ .f32 0x00000000#32) reducesTo_S88_S_d0 h_S_)))
    (Host.reduceAdd (F := Ideal)
      (shapeCast S50 (extractStridedSlice S50x1 ![0, 89] (shapeCast S50x128 A shapeCasts_S1x6400_S50x128)
        slices_S50x128_S50x1_0_89) shapeCasts_S50x1_S50)
      (constant (F := Ideal) S_ .f32 0x00000000#32) reducesTo_S50_S_d0 h_S_)

/-- The tail read at its one index: the three totals over the 50 rows, the logarithms of the 88 column totals added
    up and scaled. -/
theorem tailOf_apply (A : S1x6400.Idx → Ideal .f32) (i : S_.Idx) :
    tailOf A i
      = (Ideal.ofBits .f32 0x00000000#32 + ∑ k : Fin 50, A (entry k (⟨88, by omega⟩ : Fin 128)))
          + Ideal.ofBits .f32 0x38D1B717#32
            * (Ideal.ofBits .f32 0x00000000#32 + ∑ j : S88.Idx, FloatOps.hostUnary .log
                (Ideal.ofBits .f32 0x00000000#32 + ∑ k : Fin 50, A (entry k (colLane j))))
        + (Ideal.ofBits .f32 0x00000000#32 + ∑ k : Fin 50, A (entry k (⟨89, by omega⟩ : Fin 128))) := by
  have e1 : Host.reduceAdd (F := Ideal)
        (shapeCast S50 (extractStridedSlice S50x1 ![0, 88] (shapeCast S50x128 A shapeCasts_S1x6400_S50x128)
          slices_S50x128_S50x1_0_88) shapeCasts_S50x1_S50)
        (constant (F := Ideal) S_ .f32 0x00000000#32) reducesTo_S50_S_d0 h_S_ i
      = Ideal.ofBits .f32 0x00000000#32 + ∑ k : Fin 50, A (entry k (⟨88, by omega⟩ : Fin 128)) :=
    (hostSum50 _ _ i).trans (congrArg (Ideal.ofBits .f32 0x00000000#32 + ·) (Finset.sum_congr rfl fun k _ =>
      (column_apply _ k).trans ((lane88_apply _ k).trans (rows_apply A k _))))
  have e3 : Host.reduceAdd (F := Ideal)
        (shapeCast S50 (extractStridedSlice S50x1 ![0, 89] (shapeCast S50x128 A shapeCasts_S1x6400_S50x128)
          slices_S50x128_S50x1_0_89) shapeCasts_S50x1_S50)
        (constant (F := Ideal) S_ .f32 0x00000000#32) reducesTo_S50_S_d0 h_S_ i
      = Ideal.ofBits .f32 0x00000000#32 + ∑ k : Fin 50, A (entry k (⟨89, by omega⟩ : Fin 128)) :=
    (hostSum50 _ _ i).trans (congrArg (Ideal.ofBits .f32 0x00000000#32 + ·) (Finset.sum_congr rfl fun k _ =>
      (column_apply _ k).trans ((lane89_apply _ k).trans (rows_apply A k _))))
  have e2 : Host.reduceAdd (F := Ideal)
          (Host.log (F := Ideal)
            (Host.reduceAdd (F := Ideal)
              (extractStridedSlice S50x88 ![0, 0] (shapeCast S50x128 A shapeCasts_S1x6400_S50x128) slices_S50x128_S50x88_0_0)
              (constant (F := Ideal) S_ .f32 0x00000000#32) reducesTo_S50x88_S88_d0 h_S_))
          (constant (F := Ideal) S_ .f32 0x00000000#32) reducesTo_S88_S_d0 h_S_ i
      = Ideal.ofBits .f32 0x00000000#32 + ∑ j : S88.Idx, FloatOps.hostUnary .log
          (Ideal.ofBits .f32 0x00000000#32 + ∑ k : Fin 50, A (entry k (colLane j))) := by
    refine (hostSum88 _ _ i).trans (congrArg (Ideal.ofBits .f32 0x00000000#32 + ·) (Finset.sum_congr rfl fun j _ => ?_))
    obtain ⟨a, rfl⟩ : ∃ a : Fin 88, j = ix1 a := ⟨⟨(j 0).val, (j 0).isLt⟩, funext fun d => Fin.ext (by
      match d with | ⟨0, _⟩ => rfl)⟩
    refine congrArg (FloatOps.hostUnary (F := Ideal) .log) ?_
    refine (hostColSum _ _ a).trans (congrArg (Ideal.ofBits .f32 0x00000000#32 + ·) (Finset.sum_congr rfl fun k _ => ?_))
    exact (cols_apply _ k a).trans (rows_apply A k _)
  unfold tailOf
  show _ + _ * _ + _ = _
  rw [e1, e2, e3]
  rfl

/-! ## The program's result buffer -/

variable (m : (ℓ : Loc nD τ sig) → Buf (Elt Ideal) ℓ)

/-- What the result buffer ends holding: the tail of the array the region leaves. -/
theorem tail_eq (c : Dev nD) :
    Pipeline.afterTail₀ cfgs (dats m) 0 (V0 m) [hostOps1] c main_v14 = tailOf (Block.lossRow m c) := by
  have key : Pipeline.withArrays (cfgs 0).spec c (V0 m c) (fun w => (dats m 0 c).arrAt w (cfgs 0).N)
      (Proc.devRef .tc main_v0) = Block.lossRow m c :=
    (Pipeline.withArrays_arr spec0 launch0.win.arr_inj c _ _ 5).trans (Block.final m c)
  unfold Pipeline.afterTail₀
  show StableHlo.after hostOps1 _ (Proc.devRef .tc main_v14) = _
  after_results
  rw [key]
  rfl

end Cert.KernelIdeal.Tail

end
-- ==== Proof.LossTerms.lean ====
/-
  The loss, one entry at a time, on the extended reals — and its two scale factors.

  For one row `n` and one column `j` the loss adds up
  * `sqErr u o = (u − o)²`, the squared error of a prediction (only the first five of the six year columns count);
  * `absE g = max g (−g)`, the absolute value, summed down a column and passed through the logarithm;
  * `resid2 g w d = (g − w · d)²`, the squared residual, scaled by the word of `100`;
  * `w · w`, scaled by the word `0x3C23D70A` (the f32 nearest to `1/100`);
  * `negPart g`, which is `g` where `g < 0` and `0` elsewhere, scaled by the word of `100`.
  `scaled g w d` is the last three, each already scaled, added in that order.

  The two scale words denote non-negative REAL numbers (`100` and `10737418 / 2³⁰`). That is all the proof needs
  of them: a non-negative real factor distributes over a finite sum of extended reals whatever the terms are.
  (An f32 word with a clear sign bit and an exponent field below 255 denotes `(2²³ + fraction) · 2^(exponent − 150)`;
  for `0x42C80000` that is `13107200 · 2⁻¹⁷ = 100`, for `0x3C23D70A` it is `10737418 · 2⁻³⁰`.)
-/
import Idealize.ShloMosaic.PureOps.Ideal

noncomputable section

namespace Loss

open Idealize.ShloMosaic

/-- Year column `j < 5` among the six year columns: only the first five are compared. -/
abbrev yearCol (j : Fin 5) : Fin 6 := ⟨j.val, by have := j.isLt; omega⟩

/-- The squared error of one prediction. -/
def sqErr (u o : EReal) : EReal := (u - o) * (u - o)

/-- The absolute value, as the larger of a number and its negation. -/
def absE (g : EReal) : EReal := max g (-g)

/-- The squared residual of one entry. -/
def resid2 (g w d : EReal) : EReal := (g - w * d) * (g - w * d)

/-- An entry where it is below the zero word's value, that value elsewhere. -/
def negPart (g : EReal) : EReal :=
  Scalar.select (Ideal.cmp .olt g (Ideal.ofBits .f32 0x00000000#32)) g (Ideal.ofBits .f32 0x00000000#32)

/-- One entry's three scaled terms, added in the order the tiled program adds them. -/
def scaled (g w d : EReal) : EReal :=
  resid2 g w d * Ideal.ofBits .f32 0x42C80000#32 + w * w * Ideal.ofBits .f32 0x3C23D70A#32
    + negPart g * Ideal.ofBits .f32 0x42C80000#32

/-- The word `0x42C80000` denotes the real `100`. -/
theorem ofBits_hundred : Ideal.ofBits .f32 0x42C80000#32 = ((100 : ℝ) : EReal) := by
  simp [Ideal.ofBits, Ideal.ieee, -EReal.coe_mul]; norm_num

/-- The word `0x3C23D70A` denotes the real `10737418 / 2³⁰`, a little below `1/100`. -/
theorem ofBits_hundredth : Ideal.ofBits .f32 0x3C23D70A#32 = ((10737418 / 2 ^ 30 : ℝ) : EReal) := by
  simp [Ideal.ofBits, Ideal.ieee, -EReal.coe_mul]; norm_num

/-- The zero word denotes `0`. -/
theorem ofBits_zero : Ideal.ofBits .f32 0x00000000#32 = 0 := by
  simp [Ideal.ofBits, Ideal.ieee]

theorem hundred_nonneg : (0 : ℝ) ≤ 100 := by norm_num
theorem hundredth_nonneg : (0 : ℝ) ≤ 10737418 / 2 ^ 30 := by positivity

end Loss

end
-- ==== Proof.LossTile.lean ====
/-
  What one tile of 4000 rows contributes, read at the ideal instance.

  The body loads a tile of each input — `x0` of G, `x1` of D, `x2` of w (4000 × 88 each), `x3` of the predictions
  `out` and `x4` of the targets `U` (4000 × 6 each) — and computes three values, each by a sum down the tile's rows
  followed (for the last two) by a sum along the resulting row:
  * for every column `j` of G, the column's absolute values added down the rows (`colAbs_apply`);
  * the squared errors `(U − out)²` over the rows and the first five year columns (`sqErr_apply`);
  * the three scaled terms of every entry, `Loss.scaled`, over the rows and all 88 columns (`scaled_apply`).
  At the ideal instance a `vector.multi_reduction <add>` is the plain finite sum over the reduced axis, a
  `vector.shape_cast` between a vector and a one-row array keeps the row-major position, and a slice of the first
  five columns reads the same row and column; so each value is a double sum of the entries' terms, as stated.
-/
import proofs.«101278_j1108101563123_2_alg».proof.Proof.Gen.KernelIdeal.Skeleton
import proofs.«101278_j1108101563123_2_alg».proof.Proof.LossTerms
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Loss

section Layout

variable {α : Type}

/-- A vector of 88 entries viewed as one row reads `(0, j)` at `j`. -/
theorem asRow88 (v : S88.Idx → α) (j : Fin 88) :
    shapeCast S1x88 v shapeCasts_S88_S1x88 (ix2 (0 : Fin 1) j) = v (ix1 j) :=
  shapeCast_apply v shapeCasts_S88_S1x88 (ix2 (0 : Fin 1) j) (ix1 j) (by
    rw [Shape.rowMajor_val_one, Shape.rowMajor_val_two]; show j.val = 0 * 88 + j.val; omega)

/-- A vector of 5 entries viewed as one row reads `(0, j)` at `j`. -/
theorem asRow5 (v : S5.Idx → α) (j : Fin 5) :
    shapeCast S1x5 v shapeCasts_S5_S1x5 (ix2 (0 : Fin 1) j) = v (ix1 j) :=
  shapeCast_apply v shapeCasts_S5_S1x5 (ix2 (0 : Fin 1) j) (ix1 j) (by
    rw [Shape.rowMajor_val_one, Shape.rowMajor_val_two]; show j.val = 0 * 5 + j.val; omega)

/-- A one-entry vector viewed as a one-by-one array reads `(0, 0)` at `0`. -/
theorem asCell (v : S1.Idx → α) :
    shapeCast S1x1 v shapeCasts_S1_S1x1 (ix2 (0 : Fin 1) (0 : Fin 1)) = v (ix1 (0 : Fin 1)) :=
  shapeCast_apply v shapeCasts_S1_S1x1 (ix2 (0 : Fin 1) (0 : Fin 1)) (ix1 (0 : Fin 1)) (by
    rw [Shape.rowMajor_val_one, Shape.rowMajor_val_two]; rfl)

/-- The slice of the first five year columns reads row `r`, column `j` at row `r`, year column `j`. -/
theorem firstFive (v : S4000x6.Idx → α) (r : Fin 4000) (j : Fin 5) :
    extractStridedSlice S4000x5 ![0, 0] v slices_S4000x6_o0_0_S4000x5 (ix2 r j) = v (ix2 r (yearCol j)) :=
  extractStridedSlice_apply ![0, 0] v slices_S4000x6_o0_0_S4000x5 (ix2 r j) (ix2 r (yearCol j)) (fun a => match a with
    | ⟨0, _⟩ => by show r.val = 0 + r.val; omega
    | ⟨1, _⟩ => by show j.val = 0 + j.val; omega)

end Layout

section Sums

/-- A sum down the 4000 rows of an 88-column tile, at column `j`. -/
theorem downRows88 (v : FVec Ideal S4000x88 .f32) (hφ : FKind.Formats .f32)
    (hacc : (0x00000000#32 : BitVec FTy.f32.bits) = FKind.add.neutral .f32 hφ) (j : Fin 88) :
    multiReduction .add [0] S88 v 0x00000000#32 reduces_S4000x88_S88 hφ hacc (ix1 j) = ∑ r : Fin 4000, v (ix2 r j) :=
  (Ideal.multiReduction_add_single v 0x00000000#32 reduces_S4000x88_S88 hφ hacc (ix1 j)).trans
    (Finset.sum_congr rfl fun r _ => congrArg v (funext fun a => Fin.ext (by match a with | ⟨0, _⟩ => rfl | ⟨1, _⟩ => rfl)))

/-- A sum down the 4000 rows of a 5-column tile, at column `j`. -/
theorem downRows5 (v : FVec Ideal S4000x5 .f32) (hφ : FKind.Formats .f32)
    (hacc : (0x00000000#32 : BitVec FTy.f32.bits) = FKind.add.neutral .f32 hφ) (j : Fin 5) :
    multiReduction .add [0] S5 v 0x00000000#32 reduces_S4000x5_S5 hφ hacc (ix1 j) = ∑ r : Fin 4000, v (ix2 r j) :=
  (Ideal.multiReduction_add_single v 0x00000000#32 reduces_S4000x5_S5 hφ hacc (ix1 j)).trans
    (Finset.sum_congr rfl fun r _ => congrArg v (funext fun a => Fin.ext (by match a with | ⟨0, _⟩ => rfl | ⟨1, _⟩ => rfl)))

/-- A sum along a row of 88 entries. -/
theorem alongRow88 (v : FVec Ideal S1x88 .f32) (hφ : FKind.Formats .f32)
    (hacc : (0x00000000#32 : BitVec FTy.f32.bits) = FKind.add.neutral .f32 hφ) :
    multiReduction .add [1] S1 v 0x00000000#32 reduces_S1x88_S1 hφ hacc (ix1 (0 : Fin 1)) = ∑ j : Fin 88, v (ix2 (0 : Fin 1) j) :=
  (Ideal.multiReduction_add_single v 0x00000000#32 reduces_S1x88_S1 hφ hacc (ix1 (0 : Fin 1))).trans
    (Finset.sum_congr rfl fun j _ => congrArg v (funext fun a => Fin.ext (by match a with | ⟨0, _⟩ => rfl | ⟨1, _⟩ => rfl)))

/-- A sum along a row of 5 entries. -/
theorem alongRow5 (v : FVec Ideal S1x5 .f32) (hφ : FKind.Formats .f32)
    (hacc : (0x00000000#32 : BitVec FTy.f32.bits) = FKind.add.neutral .f32 hφ) :
    multiReduction .add [1] S1 v 0x00000000#32 reduces_S1x5_S1 hφ hacc (ix1 (0 : Fin 1)) = ∑ j : Fin 5, v (ix2 (0 : Fin 1) j) :=
  (Ideal.multiReduction_add_single v 0x00000000#32 reduces_S1x5_S1 hφ hacc (ix1 (0 : Fin 1))).trans
    (Finset.sum_congr rfl fun j _ => congrArg v (funext fun a => Fin.ext (by match a with | ⟨0, _⟩ => rfl | ⟨1, _⟩ => rfl)))

end Sums

/-- Column `j` of the first value: the absolute values of G's tile, added down the rows. -/
theorem colAbs_apply (x0 : Vec Ideal S4000x88 .f32) (j : Fin 88) :
    k0_pay2 (F := Ideal) x0 (ix2 (0 : Fin 1) j) = ∑ r : Fin 4000, absE (x0 (ix2 r j)) := by
  unfold k0_pay2
  refine (asRow88 _ j).trans ?_
  refine (downRows88 _ _ _ j).trans ?_
  exact Finset.sum_congr rfl fun r _ => rfl

/-- The second value: the squared errors over the tile's rows and the first five year columns. -/
theorem sqErr_apply (x3 x4 : Vec Ideal S4000x6 .f32) :
    k0_pay3 (F := Ideal) x3 x4 (ix2 (0 : Fin 1) (0 : Fin 1))
      = ∑ j : Fin 5, ∑ r : Fin 4000, sqErr (x4 (ix2 r (yearCol j))) (x3 (ix2 r (yearCol j))) := by
  unfold k0_pay3
  refine (asCell _).trans ?_
  refine (alongRow5 _ _ _).trans ?_
  refine Finset.sum_congr rfl fun j _ => ?_
  refine (asRow5 _ j).trans ?_
  refine (downRows5 _ _ _ j).trans ?_
  refine Finset.sum_congr rfl fun r _ => ?_
  have e4 := firstFive x4 r j
  have e3 := firstFive x3 r j
  show (extractStridedSlice S4000x5 ![0, 0] x4 slices_S4000x6_o0_0_S4000x5 (ix2 r j)
        - extractStridedSlice S4000x5 ![0, 0] x3 slices_S4000x6_o0_0_S4000x5 (ix2 r j))
      * (extractStridedSlice S4000x5 ![0, 0] x4 slices_S4000x6_o0_0_S4000x5 (ix2 r j)
        - extractStridedSlice S4000x5 ![0, 0] x3 slices_S4000x6_o0_0_S4000x5 (ix2 r j)) = _
  rw [e4, e3]
  rfl

/-- The third value: every entry's three scaled terms over the tile's rows and all 88 columns. -/
theorem scaled_apply (x0 x1 x2 : Vec Ideal S4000x88 .f32) :
    k0_pay4 (F := Ideal) x0 x1 x2 (ix2 (0 : Fin 1) (0 : Fin 1))
      = ∑ j : Fin 88, ∑ r : Fin 4000, scaled (x0 (ix2 r j)) (x2 (ix2 r j)) (x1 (ix2 r j)) := by
  unfold k0_pay4
  refine (asCell _).trans ?_
  refine (alongRow88 _ _ _).trans ?_
  refine Finset.sum_congr rfl fun j _ => ?_
  refine (asRow88 _ j).trans ?_
  refine (downRows88 _ _ _ j).trans ?_
  exact Finset.sum_congr rfl fun r _ => rfl

end Cert.KernelIdeal.Tile

end
-- ==== Proof.LibBatchNormVar.lean ====
/-
  Batch statistics of a column of finitely many REAL entries, read on the extended reals.

  A column `h i` (`i` over a finite index type of `n > 0` elements) has two spellings of its biased variance:
  the mean of the squared deviations from the mean, `(1/n) Σ (h i − μ)²` with `μ = (1/n) Σ h i`, and the mean
  of the squares less the squared mean, `(1/n) Σ (h i)² − μ²`, clamped below at zero. Over the reals the two are
  one number, and it is non-negative, so the clamp is the identity (`var_clamped_eq`). On the extended reals this
  needs every entry to be a real: with an infinite entry `⊤ − ⊤` appears and the two spellings part.

  Beside it: the inclusion of the reals commutes with finite sums (`coe_sum`) and with a quotient by a non-zero
  real at the ideal instance's division (`div_coe_coe`); a real factor `c ≥ 0` distributes over ANY finite sum of
  extended reals, infinite terms included (`mul_sum_of_nonneg_real`); a sum over `T · R` rows is the sum over
  `T` blocks of the sums over the `R` rows of a block (`sum_blocks`, row `r + R · t` in block `t`); and a running
  total that starts at zero and grows by `b t` at step `t` ends at `Σ b t` (`acc_eq_sum`).
-/
import Idealize.ShloMosaic.PureOps.Ideal
import Mathlib.Algebra.BigOperators.Fin
import Mathlib.Tactic.FieldSimp
import Mathlib.Tactic.Ring
import Mathlib.Tactic.Linarith

noncomputable section

namespace ProofLib.BatchNorm

local notation "idiv" => Idealize.ShloMosaic.Ideal.div

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- At the ideal instance a real divided by a non-zero real is the real quotient. -/
theorem div_coe_coe (x : ℝ) {n : ℝ} (hn : n ≠ 0) : idiv (x : EReal) (n : EReal) = ((x / n : ℝ) : EReal) := by
  rw [Idealize.ShloMosaic.Ideal.div_coe hn, ← EReal.coe_mul, mul_one_div]

/-- The sum of the squared deviations from any centre `μ`, expanded. -/
theorem real_sum_sq_dev [Fintype ι] (f : ι → ℝ) (μ : ℝ) {n : ℝ} (hcard : (Fintype.card ι : ℝ) = n) :
    ∑ i, (f i - μ) * (f i - μ) = (∑ i, f i * f i) - 2 * μ * (∑ i, f i) + n * (μ * μ) := by
  calc ∑ i, (f i - μ) * (f i - μ) = ∑ i, (f i * f i - 2 * μ * f i + μ * μ) :=
        Finset.sum_congr rfl fun i _ => by ring
    _ = (∑ i, f i * f i) - 2 * μ * (∑ i, f i) + n * (μ * μ) := by
        rw [Finset.sum_add_distrib, Finset.sum_sub_distrib, ← Finset.mul_sum, Finset.sum_const, Finset.card_univ,
          nsmul_eq_mul, hcard]

/-- Over the reals: the mean of the squares less the squared mean is the mean of the squared deviations from the mean. -/
theorem real_var_eq [Fintype ι] (f : ι → ℝ) {n : ℝ} (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  rw [real_sum_sq_dev f _ hcard]
  field_simp
  ring

/-- The mean of squared deviations is non-negative. -/
theorem real_var_nonneg [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a column of REAL entries: the mean of squares less the squared mean, clamped below at
    zero, is the mean of the squared deviations from the mean (divisions the ideal instance's, by the real `n`, the
    number of entries). -/
theorem var_clamped_eq [Fintype ι] (h : ι → EReal) (f : ι → ℝ) (hh : ∀ i, h i = (f i : EReal))
    {n : ℝ} (hn : 0 < n) (hcard : (Fintype.card ι : ℝ) = n) :
    max (idiv (∑ i, h i * h i) (n : EReal) - idiv (∑ i, h i) (n : EReal) * idiv (∑ i, h i) (n : EReal)) 0
      = idiv (∑ i, (h i - idiv (∑ j, h j) (n : EReal)) * (h i - idiv (∑ j, h j) (n : EReal))) (n : EReal) := by
  have hn0 : n ≠ 0 := hn.ne'
  have e1 : ∑ i, h i = ((∑ i, f i : ℝ) : EReal) := by
    rw [coe_sum]; exact Finset.sum_congr rfl fun i _ => hh i
  have e2 : ∑ i, h i * h i = ((∑ i, f i * f i : ℝ) : EReal) := by
    rw [coe_sum]; exact Finset.sum_congr rfl fun i _ => by rw [hh i, EReal.coe_mul]
  have e4 : ∑ i, (h i - (((∑ j, f j) / n : ℝ) : EReal)) * (h i - (((∑ j, f j) / n : ℝ) : EReal))
      = ((∑ i, (f i - (∑ j, f j) / n) * (f i - (∑ j, f j) / n) : ℝ) : EReal) := by
    rw [coe_sum]; exact Finset.sum_congr rfl fun i _ => by rw [hh i, EReal.coe_mul, EReal.coe_sub]
  rw [e1, e2, div_coe_coe _ hn0, div_coe_coe _ hn0, e4, div_coe_coe _ hn0, ← EReal.coe_mul, ← EReal.coe_sub,
    real_var_eq f hn0 hcard]
  exact max_eq_left (EReal.coe_nonneg.mpr (real_var_nonneg f _ hn))

/-- The mean of a column of real entries is a real: the ideal instance's quotient of their sum by `n ≠ 0`. -/
theorem mean_coe [Fintype ι] (h : ι → EReal) (f : ι → ℝ) (hh : ∀ i, h i = (f i : EReal)) {n : ℝ} (hn : n ≠ 0) :
    idiv (∑ i, h i) (n : EReal) = (((∑ i, f i) / n : ℝ) : EReal) := by
  have e1 : ∑ i, h i = ((∑ i, f i : ℝ) : EReal) := by
    rw [coe_sum]; exact Finset.sum_congr rfl fun i _ => hh i
  rw [e1, div_coe_coe _ hn]

/-- A real factor `c ≥ 0` distributes over a finite sum of extended reals, whatever the terms (an infinite term
    included: `c · (⊤ + ⊥) = c · ⊤ + c · ⊥` for `0 ≤ c < ⊤`). -/
theorem mul_sum_of_nonneg_real (c : ℝ) (hc : 0 ≤ c) (s : Finset ι) (g : ι → EReal) :
    (c : EReal) * ∑ i ∈ s, g i = ∑ i ∈ s, (c : EReal) * g i := by
  classical
  refine Finset.induction_on s ?_ ?_
  · simp
  · intro a s ha ih
    rw [Finset.sum_insert ha, Finset.sum_insert ha,
      EReal.left_distrib_of_nonneg_of_ne_top (EReal.coe_nonneg.mpr hc) (EReal.coe_ne_top c), ih]

/-- A sum over `T · R` rows is the sum over `T` blocks of the sums over the `R` rows of each block: row
    `r + R · t` is row `r` of block `t`. -/
theorem sum_blocks {M : Type*} [AddCommMonoid M] (T R : ℕ) (f : Fin (T * R) → M) :
    ∑ i, f i = ∑ t : Fin T, ∑ r : Fin R, f (finProdFinEquiv (t, r)) :=
  (Equiv.sum_comp finProdFinEquiv f).symm.trans (Fintype.sum_prod_type _)

/-- A running total that starts at zero and grows by `b t` at step `t` ends, after `T` steps, at `Σ_{t < T} b t`. -/
theorem acc_eq_sum {M : Type*} [AddCommMonoid M] (b : ℕ → M) (acc : ℕ → M) (h0 : acc 0 = 0) :
    ∀ T : ℕ, (∀ t, t < T → acc (t + 1) = acc t + b t) → acc T = ∑ t ∈ Finset.range T, b t := by
  intro T
  induction T with
  | zero => intro _; simp [h0]
  | succ k ih =>
    intro hs
    rw [hs k (Nat.lt_succ_self k), Finset.sum_range_succ, ih fun t ht => hs t (Nat.lt_succ_of_lt ht)]

end ProofLib.BatchNorm

end
-- ==== Proof.LossAlgebra.lean ====
/-
  The algebra that joins the two programs, on the extended reals.

  A loss is summed over the `N = T · R` rows of a table in two ways. One program sums each of its terms over all
  rows at once and scales the totals: `(Σ a) · p + (Σ b) · q + Σ (d · p)`. The other cuts the rows into `T` blocks of
  `R`, sums the ALREADY scaled combination `a · p + b · q + d · p` over each block, and adds the blocks' sums. The two
  agree because
  * addition of extended reals is commutative and associative, so a finite sum may be regrouped and split freely
    (`⊤ + ⊥` is `⊥` on both sides of every such step), and
  * a factor that is a REAL number `≥ 0` distributes over any finite sum of extended reals, infinite terms included.
  No entry has to be finite for either step; only the two scale factors have to be non-negative reals.
-/
import Mathlib.Data.EReal.Basic
import Mathlib.Algebra.BigOperators.Fin
import proofs.«101278_j1108101563123_2_alg».proof.Proof.LibBatchNormVar

noncomputable section

namespace Loss.Algebra

open ProofLib.BatchNorm

variable {ι κ : Type*}

/-- A non-negative real factor on the right moves out of a finite sum of extended reals. -/
theorem sum_mul_real [Fintype ι] (g : ι → EReal) (p : ℝ) (hp : 0 ≤ p) :
    ∑ i, g i * (p : EReal) = (∑ i, g i) * (p : EReal) := by
  rw [mul_comm (∑ i, g i) (p : EReal), mul_sum_of_nonneg_real p hp]
  exact Finset.sum_congr rfl fun i _ => mul_comm _ _

/-- The scaled combination summed term by term is the combination of the scaled totals. -/
theorem sum_combination [Fintype ι] (a b d : ι → EReal) (p q : ℝ) (hp : 0 ≤ p) (hq : 0 ≤ q) :
    ∑ i, (a i * (p : EReal) + b i * (q : EReal) + d i * (p : EReal))
      = (∑ i, a i) * (p : EReal) + (∑ i, b i) * (q : EReal) + ∑ i, d i * (p : EReal) := by
  rw [Finset.sum_add_distrib, Finset.sum_add_distrib, sum_mul_real a p hp, sum_mul_real b q hq]

/-- Row `r` of block `t`, of `T` blocks of `R` rows each, among all `N = T · R` rows. -/
def row {T R N : ℕ} (hN : T * R = N) (t : Fin T) (r : Fin R) : Fin N :=
  ⟨t.val * R + r.val, by
    have h1 := t.isLt; have h2 := r.isLt
    calc t.val * R + r.val < t.val * R + R := by omega
      _ = (t.val + 1) * R := by ring
      _ ≤ T * R := Nat.mul_le_mul_right R h1
      _ = N := hN⟩

/-- A sum over all rows is the sum over the blocks of the sums over each block's rows. -/
theorem sum_rows {M : Type*} [AddCommMonoid M] {T R N : ℕ} (hN : T * R = N) (f : Fin N → M) :
    ∑ n, f n = ∑ t : Fin T, ∑ r : Fin R, f (row hN t r) := by
  subst hN
  rw [sum_blocks T R f]
  refine Finset.sum_congr rfl fun t _ => Finset.sum_congr rfl fun r _ => congrArg f (Fin.ext ?_)
  show (finProdFinEquiv (t, r)).val = t.val * R + r.val
  simp [finProdFinEquiv, Nat.mul_comm, Nat.add_comm]

/-- The same for a sum over rows and columns, columns inside. -/
theorem sum_rows_cols {M : Type*} [AddCommMonoid M] {T R N C : ℕ} (hN : T * R = N) (f : Fin N → Fin C → M) :
    ∑ n, ∑ j, f n j = ∑ t : Fin T, ∑ j : Fin C, ∑ r : Fin R, f (row hN t r) j := by
  rw [sum_rows hN]
  exact Finset.sum_congr rfl fun t _ => Finset.sum_comm

/-- The two spellings of the loss agree: `P` and `L` are the parts both programs compute alike; the remaining part is
    the scaled combination, summed block by block on one side and total by total on the other. -/
theorem loss_eq {T R N C : ℕ} (hN : T * R = N) (P L : EReal) (a b d : Fin N → Fin C → EReal)
    (p q : ℝ) (hp : 0 ≤ p) (hq : 0 ≤ q) :
    (P + L) + ∑ t : Fin T, ∑ j : Fin C, ∑ r : Fin R,
        (a (row hN t r) j * (p : EReal) + b (row hN t r) j * (q : EReal) + d (row hN t r) j * (p : EReal))
      = (((P + L) + (∑ n, ∑ j, a n j) * (p : EReal)) + (∑ n, ∑ j, b n j) * (q : EReal))
          + ∑ n, ∑ j, d n j * (p : EReal) := by
  rw [← sum_rows_cols hN (fun n j => a n j * (p : EReal) + b n j * (q : EReal) + d n j * (p : EReal))]
  have e : ∑ n, ∑ j, (a n j * (p : EReal) + b n j * (q : EReal) + d n j * (p : EReal))
      = (∑ n, ∑ j, a n j) * (p : EReal) + (∑ n, ∑ j, b n j) * (q : EReal) + ∑ n, ∑ j, d n j * (p : EReal) := by
    rw [← Finset.sum_product', ← Finset.sum_product', ← Finset.sum_product', ← Finset.sum_product']
    exact sum_combination (fun x : Fin N × Fin C => a x.1 x.2) (fun x => b x.1 x.2) (fun x => d x.1 x.2) p q hp hq
  rw [e]
  simp only [add_assoc]

end Loss.Algebra

end
-- ==== Proof.LossBridge.lean ====
/-
  The two spellings of the whole loss, over the entries' coordinates.

  `G`, `W`, `D` are the three 200000 × 88 tables, `U` and `O` the targets and predictions (200000 × 6, of which the
  first five year columns count). `tiled` is the loss as the tiled program leaves it: every sum over the rows is a
  sum over the 50 tiles of a sum over a tile's 4000 rows, and the three scaled terms are combined entry by entry
  before they are summed. `whole` is the loss as the other program computes it: every sum runs over all rows at
  once and the three totals are scaled afterwards. `z` is the value of the zero word every sum starts from, `cl` the
  factor on the logarithms' total, `lg` the logarithm, `col` the column an index of the 88 column sums names; none
  of the four is opened. The two are equal (`tiled_eq_whole`): the sums regroup freely, and the scale factors are
  non-negative reals, which distribute over a finite sum of extended reals whatever its terms.
-/
import proofs.«101278_j1108101563123_2_alg».proof.Proof.LossAlgebra
import proofs.«101278_j1108101563123_2_alg».proof.Proof.LossTerms

noncomputable section

namespace Loss

open Idealize.ShloMosaic Loss.Algebra

/-- 50 tiles of 4000 rows are the 200000 rows. -/
theorem rows_eq : 50 * 4000 = 200000 := by norm_num

/-- Row `r` of tile `k`. -/
abbrev rowAt (k : Fin 50) (r : Fin 4000) : Fin 200000 := row rows_eq k r

/-- The column an index of the vector of 88 column sums names. -/
abbrev colOf (j : (⟨1, ![88]⟩ : Shape).Idx) : Fin 88 := ⟨(j 0).val, (j 0).isLt⟩

/-- The logarithm both programs apply to the column sums, as a function on the extended reals. -/
abbrev hostLog : EReal → EReal := FloatOps.hostUnary (F := Ideal) (φ := .f32) .log

variable {J : Type} [Fintype J]

/-- The loss as the tiled program leaves it. -/
def tiled (z cl : EReal) (lg : EReal → EReal) (col : J → Fin 88)
    (G W D : Fin 200000 → Fin 88 → EReal) (U O : Fin 200000 → Fin 6 → EReal) : EReal :=
  (z + ∑ k : Fin 50, ∑ j : Fin 5, ∑ r : Fin 4000, sqErr (U (rowAt k r) (yearCol j)) (O (rowAt k r) (yearCol j)))
      + cl * (z + ∑ j : J, lg (z + ∑ k : Fin 50, ∑ r : Fin 4000, absE (G (rowAt k r) (col j))))
    + (z + ∑ k : Fin 50, ∑ j : Fin 88, ∑ r : Fin 4000,
        scaled (G (rowAt k r) j) (W (rowAt k r) j) (D (rowAt k r) j))

/-- The loss as the other program computes it. -/
def whole (z cl : EReal) (lg : EReal → EReal) (col : J → Fin 88)
    (G W D : Fin 200000 → Fin 88 → EReal) (U O : Fin 200000 → Fin 6 → EReal) : EReal :=
  ((((z + ∑ n : Fin 200000, ∑ j : Fin 5, sqErr (U n (yearCol j)) (O n (yearCol j)))
        + cl * (z + ∑ j : J, lg (z + ∑ n : Fin 200000, absE (G n (col j)))))
      + (z + ∑ n : Fin 200000, ∑ j : Fin 88, resid2 (G n j) (W n j) (D n j)) * Ideal.ofBits .f32 0x42C80000#32)
    + (z + ∑ n : Fin 200000, ∑ j : Fin 88, W n j * W n j) * Ideal.ofBits .f32 0x3C23D70A#32)
  + (z + ∑ n : Fin 200000, ∑ j : Fin 88, negPart (G n j) * Ideal.ofBits .f32 0x42C80000#32)

/-- The two spellings agree when every sum starts from zero. -/
theorem tiled_eq_whole (cl : EReal) (lg : EReal → EReal) (col : J → Fin 88)
    (G W D : Fin 200000 → Fin 88 → EReal) (U O : Fin 200000 → Fin 6 → EReal) :
    tiled 0 cl lg col G W D U O = whole 0 cl lg col G W D U O := by
  unfold tiled whole scaled
  simp only [zero_add]
  rw [ofBits_hundred, ofBits_hundredth]
  have eP : ∑ k : Fin 50, ∑ j : Fin 5, ∑ r : Fin 4000, sqErr (U (rowAt k r) (yearCol j)) (O (rowAt k r) (yearCol j))
      = ∑ n : Fin 200000, ∑ j : Fin 5, sqErr (U n (yearCol j)) (O n (yearCol j)) :=
    (sum_rows_cols rows_eq (fun n j => sqErr (U n (yearCol j)) (O n (yearCol j)))).symm
  have eL : ∀ j : J, ∑ k : Fin 50, ∑ r : Fin 4000, absE (G (rowAt k r) (col j)) = ∑ n : Fin 200000, absE (G n (col j)) :=
    fun j => (sum_rows rows_eq (fun n => absE (G n (col j)))).symm
  rw [eP]
  simp only [eL]
  exact loss_eq rows_eq _ _ (fun n j => resid2 (G n j) (W n j) (D n j)) (fun n j => W n j * W n j)
    (fun n j => negPart (G n j)) 100 (10737418 / 2 ^ 30) hundred_nonneg hundredth_nonneg

end Loss

end
-- ==== Proof.LossKernel.lean ====
/-
  The tiled program's result, in the entries of its argument arrays.

  Window `w` of the pallas_call stages, at grid point `k`, rows `4000 k … 4000 k + 3999` of its array (all columns):
  G, D, w, the predictions and the targets in that order (`blockG` … `blockU`). So lane 88 of tile `k`'s row is the
  squared error over those rows, lane 89 their scaled terms, and lane `j < 88` the absolute values of G's column
  `j` over those rows; the host lines after the call add each lane over the fifty tiles. Altogether the program's
  result is `Loss.tiled` of the argument arrays' entries (`result_apply`), and `run` states the program's run with
  its result buffer at that value and its arguments unchanged.
-/
import proofs.«101278_j1108101563123_2_alg».proof.Proof.LossTail
import proofs.«101278_j1108101563123_2_alg».proof.Proof.LossTile
import proofs.«101278_j1108101563123_2_alg».proof.Proof.LossBridge

set_option maxRecDepth 16384

noncomputable section

namespace Cert.KernelIdeal.Tiled

open Cert.KernelIdeal Cert.KernelIdeal.Gen Idealize.ShloMosaic Idealize.ShloMosaic.TcCoe Idealize.SL.Sem
open Idealize.ShloMosaic.ValueIdx Loss

variable (m : (ℓ : Loc nD τ sig) → Buf (Elt Ideal) ℓ)

/-- Every input window's block at point `t` is block `(t, 0)` of its array. -/
theorem idx_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-! ## The staged blocks are rows of the argument arrays -/

theorem blockG (c : Dev nD) (k : Fin 50) (r : Fin 4000) (j : Fin 88) :
    (iblk m c 0 (Block.pt k) : Vec Ideal S4000x88 .f32) (ix2 r j)
      = m ((c : Thread nD τ).loc main_arg0) (ix2 (rowAt k r) j) := by
  obtain ⟨⟨e0, e1⟩, -⟩ := idx_in (Block.pt k)
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ =>
    show win0_0.index (Block.pt k) (0 : Fin 2) * 4000 + 1 * r.val = k.val * 4000 + r.val
    rw [e0]; show k.val * 4000 + 1 * r.val = _; omega
  | ⟨1, _⟩ =>
    show win0_0.index (Block.pt k) (1 : Fin 2) * 88 + 1 * j.val = j.val
    rw [e1]; omega

theorem blockD (c : Dev nD) (k : Fin 50) (r : Fin 4000) (j : Fin 88) :
    (iblk m c 1 (Block.pt k) : Vec Ideal S4000x88 .f32) (ix2 r j)
      = m ((c : Thread nD τ).loc main_arg4) (ix2 (rowAt k r) j) := by
  obtain ⟨-, ⟨e0, e1⟩, -⟩ := idx_in (Block.pt k)
  unfold iblk
  rw [View.read_apply]
  show V m c main_arg4 _ = m ((c : Thread nD τ).loc main_arg4) _
  rw [V_main_arg4]
  refine congrArg (m ((c : Thread nD τ).loc main_arg4)) (funext fun a => Fin.ext ?_)
  match a with
  | ⟨0, _⟩ =>
    show win0_1.index (Block.pt k) (0 : Fin 2) * 4000 + 1 * r.val = k.val * 4000 + r.val
    rw [e0]; show k.val * 4000 + 1 * r.val = _; omega
  | ⟨1, _⟩ =>
    show win0_1.index (Block.pt k) (1 : Fin 2) * 88 + 1 * j.val = j.val
    rw [e1]; omega

theorem blockW (c : Dev nD) (k : Fin 50) (r : Fin 4000) (j : Fin 88) :
    (iblk m c 2 (Block.pt k) : Vec Ideal S4000x88 .f32) (ix2 r j)
      = m ((c : Thread nD τ).loc main_arg5) (ix2 (rowAt k r) j) := by
  obtain ⟨-, -, ⟨e0, e1⟩, -⟩ := idx_in (Block.pt k)
  unfold iblk
  rw [View.read_apply]
  show V m c main_arg5 _ = m ((c : Thread nD τ).loc main_arg5) _
  rw [V_main_arg5]
  refine congrArg (m ((c : Thread nD τ).loc main_arg5)) (funext fun a => Fin.ext ?_)
  match a with
  | ⟨0, _⟩ =>
    show win0_2.index (Block.pt k) (0 : Fin 2) * 4000 + 1 * r.val = k.val * 4000 + r.val
    rw [e0]; show k.val * 4000 + 1 * r.val = _; omega
  | ⟨1, _⟩ =>
    show win0_2.index (Block.pt k) (1 : Fin 2) * 88 + 1 * j.val = j.val
    rw [e1]; omega

theorem blockO (c : Dev nD) (k : Fin 50) (r : Fin 4000) (j : Fin 6) :
    (iblk m c 3 (Block.pt k) : Vec Ideal S4000x6 .f32) (ix2 r j)
      = m ((c : Thread nD τ).loc main_arg1) (ix2 (rowAt k r) j) := by
  obtain ⟨-, -, -, ⟨e0, e1⟩, -⟩ := idx_in (Block.pt k)
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ =>
    show win0_3.index (Block.pt k) (0 : Fin 2) * 4000 + 1 * r.val = k.val * 4000 + r.val
    rw [e0]; show k.val * 4000 + 1 * r.val = _; omega
  | ⟨1, _⟩ =>
    show win0_3.index (Block.pt k) (1 : Fin 2) * 6 + 1 * j.val = j.val
    rw [e1]; omega

theorem blockU (c : Dev nD) (k : Fin 50) (r : Fin 4000) (j : Fin 6) :
    (iblk m c 4 (Block.pt k) : Vec Ideal S4000x6 .f32) (ix2 r j)
      = m ((c : Thread nD τ).loc main_arg2) (ix2 (rowAt k r) j) := by
  obtain ⟨-, -, -, -, ⟨e0, e1⟩⟩ := idx_in (Block.pt k)
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ =>
    show win0_4.index (Block.pt k) (0 : Fin 2) * 4000 + 1 * r.val = k.val * 4000 + r.val
    rw [e0]; show k.val * 4000 + 1 * r.val = _; omega
  | ⟨1, _⟩ =>
    show win0_4.index (Block.pt k) (1 : Fin 2) * 6 + 1 * j.val = j.val
    rw [e1]; omega

/-! ## The three lanes of a tile's row, in the arrays' entries -/

/-- Lane 88 of tile `k`'s row: the squared errors over the tile's rows and the first five year columns. -/
theorem lane88 (c : Dev nD) (k : Fin 50) :
    Block.lossRow m c (Tail.entry k (⟨88, by omega⟩ : Fin 128))
      = ∑ j : Fin 5, ∑ r : Fin 4000, sqErr (m ((c : Thread nD τ).loc main_arg2) (ix2 (rowAt k r) (yearCol j)))
          (m ((c : Thread nD τ).loc main_arg1) (ix2 (rowAt k r) (yearCol j))) := by
  refine (Block.lossRow_apply m c k (⟨88, by omega⟩ : Fin 128) _).trans ?_
  unfold Block.tileVal
  refine (Block.tileRow_88 (iblk m c 0 (Block.pt k)) (iblk m c 1 (Block.pt k)) (iblk m c 2 (Block.pt k))
    (iblk m c 3 (Block.pt k)) (iblk m c 4 (Block.pt k)) _ rfl).trans ?_
  refine (Tile.sqErr_apply (iblk m c 3 (Block.pt k)) (iblk m c 4 (Block.pt k))).trans ?_
  exact Finset.sum_congr rfl fun j _ => Finset.sum_congr rfl fun r _ =>
    congrArg₂ sqErr (blockU m c k r (yearCol j)) (blockO m c k r (yearCol j))

/-- Lane 89 of tile `k`'s row: the scaled terms over the tile's rows and all columns. -/
theorem lane89 (c : Dev nD) (k : Fin 50) :
    Block.lossRow m c (Tail.entry k (⟨89, by omega⟩ : Fin 128))
      = ∑ j : Fin 88, ∑ r : Fin 4000, scaled (m ((c : Thread nD τ).loc main_arg0) (ix2 (rowAt k r) j))
          (m ((c : Thread nD τ).loc main_arg5) (ix2 (rowAt k r) j)) (m ((c : Thread nD τ).loc main_arg4) (ix2 (rowAt k r) j)) := by
  refine (Block.lossRow_apply m c k (⟨89, by omega⟩ : Fin 128) _).trans ?_
  unfold Block.tileVal
  refine (Block.tileRow_89 (iblk m c 0 (Block.pt k)) (iblk m c 1 (Block.pt k)) (iblk m c 2 (Block.pt k))
    (iblk m c 3 (Block.pt k)) (iblk m c 4 (Block.pt k)) _ rfl).trans ?_
  refine (Tile.scaled_apply (iblk m c 0 (Block.pt k)) (iblk m c 1 (Block.pt k)) (iblk m c 2 (Block.pt k))).trans ?_
  exact Finset.sum_congr rfl fun j _ => Finset.sum_congr rfl fun r _ => by
    rw [blockG m c k r j, blockW m c k r j, blockD m c k r j]

/-- Lane `colOf j` of tile `k`'s row: the absolute values of G's column over the tile's rows. -/
theorem laneCol (c : Dev nD) (j : S88.Idx) (k : Fin 50) :
    Block.lossRow m c (Tail.entry k (Tail.colLane j))
      = ∑ r : Fin 4000, absE (m ((c : Thread nD τ).loc main_arg0) (ix2 (rowAt k r) (colOf j))) := by
  refine (Block.lossRow_apply m c k (Tail.colLane j) _).trans ?_
  unfold Block.tileVal
  refine (Block.tileRow_col (iblk m c 0 (Block.pt k)) (iblk m c 1 (Block.pt k)) (iblk m c 2 (Block.pt k))
    (iblk m c 3 (Block.pt k)) (iblk m c 4 (Block.pt k)) _ (colOf j) rfl).trans ?_
  refine (Tile.colAbs_apply (iblk m c 0 (Block.pt k)) (colOf j)).trans ?_
  exact Finset.sum_congr rfl fun r _ => congrArg absE (blockG m c k r (colOf j))

/-! ## The result -/

/-- The program's result is `Loss.tiled` of its arguments' entries. -/
theorem result_apply (c : Dev nD) (i : S_.Idx) :
    Tail.tailOf (Block.lossRow m c) i
      = tiled (Ideal.ofBits .f32 0x00000000#32) (Ideal.ofBits .f32 0x38D1B717#32) hostLog colOf
          (fun n j => m ((c : Thread nD τ).loc main_arg0) (ix2 n j))
          (fun n j => m ((c : Thread nD τ).loc main_arg5) (ix2 n j))
          (fun n j => m ((c : Thread nD τ).loc main_arg4) (ix2 n j))
          (fun n j => m ((c : Thread nD τ).loc main_arg2) (ix2 n j))
          (fun n j => m ((c : Thread nD τ).loc main_arg1) (ix2 n j)) := by
  rw [Tail.tailOf_apply]
  simp only [lane88, lane89, laneCol]
  rfl

/-- The program's run: the result buffer ends at the tail of the array the region leaves, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v14) = Tail.tailOf (Block.lossRow m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans (Tail.tail_eq m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c)))⟩)
    (run_main m ρ)

end Cert.KernelIdeal.Tiled

end
-- ==== Proof.LossRef.lean ====
/-
  The reference program's result, read at the ideal instance.

  Its operations are read one at a time by the generated stages: every difference, product, comparison and select
  entry by entry; every `reduce … add` as its initial value plus the finite sum over what it reduces. Put together,
  the result is `Loss.whole` of the argument arrays' entries: the squared errors over the first five year columns,
  the factor `0x38D1B717` times the total of the logarithms of G's 88 column sums of absolute values, the squared
  residuals' total times the word of 100, the total of `w · w` times the word `0x3C23D70A`, and the total of the
  scaled negative parts — added in that order.
-/
import proofs.«101278_j1108101563123_2_alg».proof.Proof.Gen.ReferenceIdeal.Read
import proofs.«101278_j1108101563123_2_alg».proof.Proof.LossBridge
import Idealize.ShloMosaic.Lib.ValueIdx

noncomputable section

namespace Cert.ReferenceIdeal.Whole

open Cert.ReferenceIdeal Cert.ReferenceIdeal.Read Idealize.ShloMosaic Idealize.ShloMosaic.ValueIdx Loss

/-- The slice of the targets' first five columns reads row `n`, year column `j`. -/
theorem idx_targets (n : Fin 200000) (j : Fin 5) : idx_main_v0 (ix2 n j) = ix2 n (yearCol j) :=
  funext fun a => Fin.ext (by match a with | ⟨0, _⟩ => rfl | ⟨1, _⟩ => rfl)

/-- The slice of the predictions' first five columns likewise. -/
theorem idx_preds (n : Fin 200000) (j : Fin 5) : idx_main_v1 (ix2 n j) = ix2 n (yearCol j) :=
  funext fun a => Fin.ext (by match a with | ⟨0, _⟩ => rfl | ⟨1, _⟩ => rfl)

/-- The column sum at `j` runs over the rows `k` of column `colOf j`. -/
theorem idx_colsum (j : S88.Idx) (k : Fin 200000) : idx_main_v6 j k = ix2 k (colOf j) :=
  funext fun a => Fin.ext (by match a with | ⟨0, _⟩ => rfl | ⟨1, _⟩ => rfl)

/-- The reference's result is `Loss.whole` of its arguments' entries. -/
theorem result_apply (x0 : (⟨S200000x88, .f32⟩ : BufTy).Contents (Elt Ideal)) (x1 x2 : (⟨S200000x6, .f32⟩ : BufTy).Contents (Elt Ideal))
    (x4 x5 : (⟨S200000x88, .f32⟩ : BufTy).Contents (Elt Ideal)) (i : S_.Idx) :
    val_main_v27 (F := Ideal) x0 x1 x2 x4 x5 i
      = whole (Ideal.ofBits .f32 0x00000000#32) (Ideal.ofBits .f32 0x38D1B717#32) hostLog colOf
          (fun n j => x0 (ix2 n j)) (fun n j => x5 (ix2 n j)) (fun n j => x4 (ix2 n j))
          (fun n j => x2 (ix2 n j)) (fun n j => x1 (ix2 n j)) := by
  rw [val_main_v27_apply, val_main_v20_apply, val_main_v16_apply, val_main_v10_apply, val_main_v4_apply,
    val_main_v9_apply, val_main_v8_apply, val_main_v15_apply, val_main_v14_apply, val_main_v19_apply,
    val_main_v18_apply, val_main_v26_apply]
  simp only [sum_idx2]
  simp only [val_main_v7_apply, val_main_v6_apply, val_main_v5_apply, idx_colsum,
    val_main_v3_apply, val_main_v2_apply, val_main_v0_apply, val_main_v1_apply, idx_targets, idx_preds,
    val_main_v13_apply, val_main_v12_apply, val_main_v11_apply, val_main_v17_apply,
    val_main_v25_apply, val_main_v23_apply, val_main_v22_apply, val_main_v21_apply, val_main_cst_7_apply,
    val_main_call0_v1_apply, val_main_call0_v0_apply, val_main_cst_8_apply, val_main_v24_apply, val_main_cst_9_apply,
    val_main_cst_apply, val_main_cst_0_apply, val_main_cst_1_apply, val_main_cst_2_apply, val_main_cst_3_apply,
    val_main_cst_4_apply, val_main_cst_5_apply, val_main_cst_6_apply, val_main_cst_10_apply]
  rfl

end Cert.ReferenceIdeal.Whole

end
-- ==== Proof.lean ====
/- The loss kernel against its reference, on the extended reals.

   Both programs compute one number from five tables (G, D, w of 200000 × 88; the predictions and the targets of
   200000 × 6):

     Σ (U − out)²  over the rows and the first five year columns
       + c · Σ_j log (Σ_n |G n j|)
       + 100 · Σ (G − w · D)²  +  q · Σ w²  +  Σ 100 · negPart G,

   with c, 100 and q the values of three f32 words that both programs spell identically. The reference sums each
   term over all rows at once and scales the totals. The kernel cuts the rows into 50 tiles of 4000, lets each tile
   write one row of 128 lanes (the 88 column sums of |G|, the tile's squared error, the tile's three scaled terms
   already combined entry by entry, and zeros), and the host lines after it add every lane over the tiles, take the
   logarithms of the 88 column totals, and add the three parts.

   The two results are the same extended real for ALL inputs, finite or not: finite sums of extended reals regroup
   and split freely, and the factors 100 and q are non-negative reals, which distribute over a finite sum whatever
   its terms. So the precondition is never opened.

   The modules: LossTerms (one entry's terms; the constants' values), LossAlgebra (the laws), LossBridge (the two
   spellings over coordinates, equal), LossTile (one tile's three values as double sums), LossBlock (the row a
   tile writes, and the result array after the call as one function), LossTail (the host lines after the call),
   LossKernel (the kernel's result in the arrays' entries, and its run), LossRef (the reference's result likewise).
   The three frames are the generated ones; the idealization rewrote nothing, so `preserves` is `True`. -/
import proofs.«101278_j1108101563123_2_alg».proof.Defs
import proofs.«101278_j1108101563123_2_alg».proof.Proof.Gen.Kernel
import proofs.«101278_j1108101563123_2_alg».proof.Proof.Gen.Kernel.Skeleton
import proofs.«101278_j1108101563123_2_alg».proof.Proof.Gen.Kernel.Launch
import proofs.«101278_j1108101563123_2_alg».proof.Proof.Gen.Kernel.Points
import proofs.«101278_j1108101563123_2_alg».proof.Proof.Gen.Kernel.Frame
import proofs.«101278_j1108101563123_2_alg».proof.Proof.Gen.KernelIdeal
import proofs.«101278_j1108101563123_2_alg».proof.Proof.Gen.KernelIdeal.Skeleton
import proofs.«101278_j1108101563123_2_alg».proof.Proof.Gen.KernelIdeal.Launch
import proofs.«101278_j1108101563123_2_alg».proof.Proof.Gen.KernelIdeal.Points
import proofs.«101278_j1108101563123_2_alg».proof.Proof.Gen.KernelIdeal.Frame
import proofs.«101278_j1108101563123_2_alg».proof.Proof.Gen.ReferenceIdeal
import proofs.«101278_j1108101563123_2_alg».proof.Proof.Gen.ReferenceIdeal.Run
import proofs.«101278_j1108101563123_2_alg».proof.Proof.Gen.ReferenceIdeal.Read
import proofs.«101278_j1108101563123_2_alg».proof.Proof.Gen.Pre_finite_inputs
import proofs.«101278_j1108101563123_2_alg».proof.Proof.LossKernel
import proofs.«101278_j1108101563123_2_alg».proof.Proof.LossRef
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same extended real: the kernel's result
    is the tiled spelling of the loss, the reference's the whole-table spelling, of the same entries. -/
theorem algebraic : Cert.algebraic_KernelIdeal_ReferenceIdeal := by
  intro m ρ m' ρ' _ hagree
  refine ⟨fun c => Cert.KernelIdeal.Tail.tailOf (Cert.KernelIdeal.Block.lossRow m c), Cert.KernelIdeal.Tiled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq]
  funext i
  show _ = Cert.KernelIdeal.Tail.tailOf (Cert.KernelIdeal.Block.lossRow m c) i
  rw [Cert.ReferenceIdeal.Whole.result_apply, Cert.KernelIdeal.Tiled.result_apply, Loss.ofBits_zero,
    (hagree c).1, (hagree c).2.1, (hagree c).2.2.1, (hagree c).2.2.2.2.1, (hagree c).2.2.2.2.2]
  exact (Loss.tiled_eq_whole _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
